-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128x128 .f32) (main_arg4 : FVec F S128 .f32) (main_arg5 : FVec F S128x128 .f32) (main_arg6 : FVec F S128x128 .f32) (main_arg7 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S5000x128 : Shape := ⟨2, ![5000, 128]⟩

abbrev nBuf : Space → Nat
  | .hbm => 66
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S1x128, .f32⟩
  | .hbm, ⟨38, _⟩ => ⟨S50000x128, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x128, .f32⟩
  | .hbm, ⟨48, _⟩ => ⟨S_, .f32⟩
  | .hbm, ⟨49, _⟩ => ⟨S50000x128, .f32⟩
  | .hbm, ⟨50, _⟩ => ⟨S800000x1, .i32⟩
  | .hbm, ⟨51, _⟩ => ⟨S50000x128, .f32⟩
  | .hbm, ⟨52, _⟩ => ⟨S_, .f32⟩
  | .hbm, ⟨53, _⟩ => ⟨S800000, .f32⟩
  | .hbm, ⟨54, _⟩ => ⟨S_, .f32⟩
  | .hbm, ⟨55, _⟩ => ⟨S50000, .f32⟩
  | .hbm, ⟨56, _⟩ => ⟨S800000x1, .i32⟩
  | .hbm, ⟨57, _⟩ => ⟨S50000, .f32⟩
  | .hbm, ⟨58, _⟩ => ⟨S_, .f32⟩
  | .hbm, ⟨59, _⟩ => ⟨S50000, .f32⟩
  | .hbm, ⟨60, _⟩ => ⟨S50000, .f32⟩
  | .hbm, ⟨61, _⟩ => ⟨S50000x1, .f32⟩
  | .hbm, ⟨62, _⟩ => ⟨S50000x128, .f32⟩
  | .hbm, ⟨63, _⟩ => ⟨S50000x128, .f32⟩
  | .hbm, ⟨64, _⟩ => ⟨S1x128, .f32⟩
  | .hbm, ⟨65, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_cst_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 80
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S1x128, .f32⟩
  | .hbm, ⟨41, _⟩ => ⟨S50000x128, .f32⟩
  | .hbm, ⟨42, _⟩ => ⟨S50000x128, .f32⟩
  | .hbm, ⟨43, _⟩ => ⟨S_, .f32⟩
  | .hbm, ⟨44, _⟩ => ⟨S50000x128, .f32⟩
  | .hbm, ⟨45, _⟩ => ⟨S50000x128, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x128, .f32⟩
  | .hbm, ⟨55, _⟩ => ⟨S_, .f32⟩
  | .hbm, ⟨56, _⟩ => ⟨S50000x128, .f32⟩
  | .hbm, ⟨57, _⟩ => ⟨S800000x1, .i32⟩
  | .hbm, ⟨58, _⟩ => ⟨S50000x128, .f32⟩
  | .hbm, ⟨59, _⟩ => ⟨S_, .f32⟩
  | .hbm, ⟨60, _⟩ => ⟨S800000, .f32⟩
  | .hbm, ⟨61, _⟩ => ⟨S_, .f32⟩
  | .hbm, ⟨62, _⟩ => ⟨S50000, .f32⟩
  | .hbm, ⟨63, _⟩ => ⟨S800000x1, .i32⟩
  | .hbm, ⟨64, _⟩ => ⟨S50000, .f32⟩
  | .hbm, ⟨65, _⟩ => ⟨S_, .f32⟩
  | .hbm, ⟨66, _⟩ => ⟨S50000, .f32⟩
  | .hbm, ⟨67, _⟩ => ⟨S50000, .f32⟩
  | .hbm, ⟨68, _⟩ => ⟨S50000x1, .f32⟩
  | .hbm, ⟨69, _⟩ => ⟨S50000x128, .f32⟩
  | .hbm, ⟨70, _⟩ => ⟨S50000x128, .f32⟩
  | .hbm, ⟨71, _⟩ => ⟨S50000x128, .f32⟩
  | .hbm, ⟨72, _⟩ => ⟨S50000x128, .f32⟩
  | .hbm, ⟨73, _⟩ => ⟨S50000x128, .f32⟩
  | .hbm, ⟨74, _⟩ => ⟨S1x128, .f32⟩
  | .hbm, ⟨75, _⟩ => ⟨S50000x128, .f32⟩
  | .hbm, ⟨76, _⟩ => ⟨S50000x128, .f32⟩
  | .hbm, ⟨77, _⟩ => ⟨S_, .f32⟩
  | .hbm, ⟨78, _⟩ => ⟨S50000x128, .f32⟩
  | .hbm, ⟨79, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_call1_cst : Ref sig .tc := ⟨.hbm, 77, rfl⟩
abbrev main_call1_v0 : Ref sig .tc := ⟨.hbm, 78, rfl⟩
abbrev main_v55 : Ref sig .tc := ⟨.hbm, 79, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Layer.lean ====
/-
  One GraphSAGE layer with mean aggregation, as a function of whole arrays over the extended reals.

  For node features `x` (n rows of 128), an aggregated neighbour array `a` of the same shape, two 128 × 128 weight
  matrices and a bias, the layer's value at row `r`, column `q` is

      max ( Σ_k a[r,k] · wn[k,q]  +  Σ_k x[r,k] · wr[k,q]  +  bias[q] , 0 ).

  `rowDot` is one of the two sums, `cell` one entry, `layer` the whole 50000 × 128 array. The entry depends on
  row `r` of `a` and `x` only, which is why a block of rows of the result is the same function of the matching
  blocks of rows of the operands (`cell_congr`).
-/
import Idealize.ShloMosaic.PureOps.Ideal
import Idealize.ShloMosaic.Lib.ValueIdx

noncomputable section

namespace Cert.Sage

open Idealize.ShloMosaic Idealize.ShloMosaic.ValueIdx

/-- Row `r` of `a` against column `q` of `w`: `Σ_k a[r,k] · w[k,q]`. -/
def rowDot {n : Nat} (a : (⟨2, ![n, 128]⟩ : Shape).Idx → EReal) (w : (⟨2, ![128, 128]⟩ : Shape).Idx → EReal)
    (r : Fin n) (q : Fin 128) : EReal :=
  ∑ k : Fin 128, a (ix2 r k) * w (ix2 k q)

/-- One entry of the layer: the neighbour term plus the root term plus the bias entry `β`, clamped below at zero
    (the zero is kept as the float word both programs print). -/
def cell {n : Nat} (a x : (⟨2, ![n, 128]⟩ : Shape).Idx → EReal) (wn wr : (⟨2, ![128, 128]⟩ : Shape).Idx → EReal)
    (β : EReal) (r : Fin n) (q : Fin 128) : EReal :=
  max (rowDot a wn r q + rowDot x wr r q + β) (Ideal.ofBits .f32 0x00000000#32)

/-- The layer over all 50000 nodes, the bias a vector of 128. -/
def layer (a x : (⟨2, ![50000, 128]⟩ : Shape).Idx → EReal) (wn wr : (⟨2, ![128, 128]⟩ : Shape).Idx → EReal)
    (b : (⟨1, ![128]⟩ : Shape).Idx → EReal) : (⟨2, ![50000, 128]⟩ : Shape).Idx → EReal :=
  fun i => cell a x wn wr (b (ix1 (i 1))) (i 0) (i 1)

/-- The same layer with the bias laid out as one row of 128 (the form a kernel block sees it in). -/
def layerRow (a x : (⟨2, ![50000, 128]⟩ : Shape).Idx → EReal) (wn wr : (⟨2, ![128, 128]⟩ : Shape).Idx → EReal)
    (b : (⟨2, ![1, 128]⟩ : Shape).Idx → EReal) : (⟨2, ![50000, 128]⟩ : Shape).Idx → EReal :=
  fun i => cell a x wn wr (b (ix2 0 (i 1))) (i 0) (i 1)

/-- Two entries agree when the rows of the feature arrays, the columns of the weight matrices and the bias entries they
    read agree — whatever the sizes of the arrays the rows sit in. -/
theorem cell_congr {n n' : Nat} (a x : (⟨2, ![n, 128]⟩ : Shape).Idx → EReal) (a' x' : (⟨2, ![n', 128]⟩ : Shape).Idx → EReal)
    (wn wr wn' wr' : (⟨2, ![128, 128]⟩ : Shape).Idx → EReal) (β β' : EReal) (r : Fin n) (r' : Fin n') (q q' : Fin 128)
    (ha : ∀ k : Fin 128, a (ix2 r k) = a' (ix2 r' k)) (hx : ∀ k : Fin 128, x (ix2 r k) = x' (ix2 r' k))
    (hwn : ∀ k : Fin 128, wn (ix2 k q) = wn' (ix2 k q')) (hwr : ∀ k : Fin 128, wr (ix2 k q) = wr' (ix2 k q'))
    (hβ : β = β') : cell a x wn wr β r q = cell a' x' wn' wr' β' r' q' := by
  have h1 : rowDot a wn r q = rowDot a' wn' r' q' := Finset.sum_congr rfl fun k _ => by rw [ha k, hwn k]
  have h2 : rowDot x wr r q = rowDot x' wr' r' q' := Finset.sum_congr rfl fun k _ => by rw [hx k, hwr k]
  unfold cell
  rw [h1, h2, hβ]

end Cert.Sage

end
-- ==== Proof.RefValue.lean ====
/-
  The reference, read as two applications of one layer.

  The reference computes, twice, the mean aggregation of a feature array over the edges (gather the source rows,
  sum them into the destination rows, divide by the clamped in-degree) followed by the dense layer of
  `Cert.Sage.layer`. `meanAgg` names the aggregation as ONE function of the feature array and of the two edge
  rows; it is never opened: both programs apply it to arrays that are proved equal. The dense part is read index by
  index: a host matrix product is the sum over the contracted axis, the bias broadcast reads `b[q]`, and the final
  `maximum` against the broadcast zero is the clamp.
-/
import proofs.«107053_j23210003267951_1_alg».proof.Proof.Gen.ReferenceIdeal.Read
import proofs.«107053_j23210003267951_1_alg».proof.Proof.Layer

noncomputable section

namespace Cert.ReferenceIdeal.RefValue

open Idealize.ShloMosaic Idealize.ShloMosaic.ValueIdx Cert.ReferenceIdeal Cert.ReferenceIdeal.Gen Cert.ReferenceIdeal.Read Cert.Sage

/-- Mean aggregation over the edges: `s` the source node of each edge, `d` its destination. A negative source index
    is first shifted by the number of nodes; the gathered rows are summed into their destination rows, and each row is
    divided by max(in-degree, 1). -/
def meanAgg {F : FTy → Type} [FloatOps F] (h : (⟨S50000x128, .f32⟩ : BufTy).Contents (Elt F))
    (s d : (⟨S800000, .i32⟩ : BufTy).Contents (Elt F)) : (⟨S50000x128, .f32⟩ : BufTy).Contents (Elt F) :=
  Host.divf
    (Host.scatterAdd scatter_S50000x128_S800000x1_S800000x128_1_0_0_1 (val_main_v11 (F := F))
      (broadcastInDim S800000x1 ![0] bcast_S800000_S800000x1_0 d)
      (Host.gather gather_S50000x128_S800000x1_S800000x128_1_0_n_n_0_1_1128 h
        (broadcastInDim S800000x1 ![0] bcast_S800000_S800000x1_0
          (select (cmpi .slt s (val_main_v4 (F := F))) (addi s (val_main_v6 (F := F))) s))))
    (broadcastInDim S50000x128 ![0, 1] bcast_S50000x1_S50000x128_0_1
      (broadcastInDim S50000x1 ![0] bcast_S50000_S50000x1_0
        (maximumf
          (Host.scatterAdd scatter_S50000_S800000x1_S800000_n_0_0_1 (val_main_v15 (F := F))
            (broadcastInDim S800000x1 ![0] bcast_S800000_S800000x1_0 d) (val_main_v14 (F := F)))
          (val_main_v18 (F := F)))))

/-- The dense part of a reference layer as the host operations spell it: two matrix products, their sum, the
    broadcast bias added, the maximum with the broadcast zero. -/
def denseRef {F : FTy → Type} [FloatOps F] (a h : (⟨S50000x128, .f32⟩ : BufTy).Contents (Elt F))
    (wn wr : (⟨S128x128, .f32⟩ : BufTy).Contents (Elt F)) (b : (⟨S128, .f32⟩ : BufTy).Contents (Elt F)) :
    (⟨S50000x128, .f32⟩ : BufTy).Contents (Elt F) :=
  maximumf (addf (addf (val_main_v24 (F := F) a wn) (val_main_v24 (F := F) h wr)) (val_main_v27 (F := F) b))
    (val_main_call0_v0 (F := F))

/-- The first aggregation is `meanAgg` of the input features. -/
theorem agg1_eq (x0 : (⟨S50000x128, .f32⟩ : BufTy).Contents (Elt Ideal)) (x1 : (⟨S2x800000, .i32⟩ : BufTy).Contents (Elt Ideal)) :
    val_main_v22 (F := Ideal) x0 x1 = meanAgg (F := Ideal) x0 (val_main_v1 (F := Ideal) x1) (val_main_v3 (F := Ideal) x1) := rfl

/-- The second aggregation is `meanAgg` of the hidden features, over the same edges. -/
theorem agg2_eq (x0 : (⟨S50000x128, .f32⟩ : BufTy).Contents (Elt Ideal)) (x1 : (⟨S2x800000, .i32⟩ : BufTy).Contents (Elt Ideal))
    (x2 x3 : (⟨S128x128, .f32⟩ : BufTy).Contents (Elt Ideal)) (x4 : (⟨S128, .f32⟩ : BufTy).Contents (Elt Ideal)) :
    val_main_v48 (F := Ideal) x0 x1 x2 x3 x4
      = meanAgg (F := Ideal) (val_main_v29 (F := Ideal) x0 x1 x2 x3 x4) (val_main_v1 (F := Ideal) x1) (val_main_v3 (F := Ideal) x1) := rfl

/-- The dense part of a reference layer — two host matrix products, the broadcast bias, the clamp — is `layer`. -/
theorem dense_eq (a h : (⟨S50000x128, .f32⟩ : BufTy).Contents (Elt Ideal)) (wn wr : (⟨S128x128, .f32⟩ : BufTy).Contents (Elt Ideal))
    (b : (⟨S128, .f32⟩ : BufTy).Contents (Elt Ideal)) :
    denseRef (F := Ideal) a h wn wr b = layer a h wn wr b := by
  unfold denseRef
  funext i
  obtain ⟨r, q, rfl⟩ : ∃ (r : Fin 50000) (q : Fin 128), i = ix2 r q := ⟨i 0, i 1, eq_ix2 i⟩
  show max (val_main_v24 (F := Ideal) a wn (ix2 r q) + val_main_v24 (F := Ideal) h wr (ix2 r q) + val_main_v27 (F := Ideal) b (ix2 r q))
      (val_main_call0_v0 (F := Ideal) (ix2 r q)) = _
  rw [val_main_v24_apply, val_main_v24_apply, val_main_v27_apply, val_main_v26_apply, val_main_call0_v0_apply,
    val_main_call0_cst_apply]
  have el : ∀ k : Fin 128, lidx_main_v24 (ix2 r q) k = ix2 r k := fun k =>
    funext fun a => Fin.ext (by match a with | ⟨0, _⟩ => rfl | ⟨1, _⟩ => rfl)
  have er : ∀ k : Fin 128, ridx_main_v24 (ix2 r q) k = ix2 k q := fun k =>
    funext fun a => Fin.ext (by match a with | ⟨0, _⟩ => rfl | ⟨1, _⟩ => rfl)
  have eb : idx_main_v26 (idx_main_v27 (ix2 r q)) = ix1 q :=
    funext fun a => Fin.ext (by match a with | ⟨0, _⟩ => rfl)
  simp only [el, er, eb]
  rfl

/-- The hidden features: the layer of the first aggregation and the input features. -/
theorem hidden_eq (x0 : (⟨S50000x128, .f32⟩ : BufTy).Contents (Elt Ideal)) (x1 : (⟨S2x800000, .i32⟩ : BufTy).Contents (Elt Ideal))
    (x2 x3 : (⟨S128x128, .f32⟩ : BufTy).Contents (Elt Ideal)) (x4 : (⟨S128, .f32⟩ : BufTy).Contents (Elt Ideal)) :
    val_main_v29 (F := Ideal) x0 x1 x2 x3 x4 = layer (val_main_v22 (F := Ideal) x0 x1) x0 x2 x3 x4 :=
  dense_eq (val_main_v22 (F := Ideal) x0 x1) x0 x2 x3 x4

/-- The result: the layer of the second aggregation and the hidden features. -/
theorem result_eq (x0 : (⟨S50000x128, .f32⟩ : BufTy).Contents (Elt Ideal)) (x1 : (⟨S2x800000, .i32⟩ : BufTy).Contents (Elt Ideal))
    (x2 x3 : (⟨S128x128, .f32⟩ : BufTy).Contents (Elt Ideal)) (x4 : (⟨S128, .f32⟩ : BufTy).Contents (Elt Ideal))
    (x5 x6 : (⟨S128x128, .f32⟩ : BufTy).Contents (Elt Ideal)) (x7 : (⟨S128, .f32⟩ : BufTy).Contents (Elt Ideal)) :
    val_main_v55 (F := Ideal) x0 x1 x2 x3 x4 x5 x6 x7
      = layer (val_main_v48 (F := Ideal) x0 x1 x2 x3 x4) (val_main_v29 (F := Ideal) x0 x1 x2 x3 x4) x5 x6 x7 :=
  dense_eq (val_main_v48 (F := Ideal) x0 x1 x2 x3 x4) (val_main_v29 (F := Ideal) x0 x1 x2 x3 x4) x5 x6 x7

/-- The hidden features as a function of the arguments: the layer of the mean aggregation of the input features. -/
def hiddenOf (x0 : (⟨S50000x128, .f32⟩ : BufTy).Contents (Elt Ideal)) (x1 : (⟨S2x800000, .i32⟩ : BufTy).Contents (Elt Ideal))
    (x2 x3 : (⟨S128x128, .f32⟩ : BufTy).Contents (Elt Ideal)) (x4 : (⟨S128, .f32⟩ : BufTy).Contents (Elt Ideal)) :
    (⟨S50000x128, .f32⟩ : BufTy).Contents (Elt Ideal) :=
  layer (meanAgg (F := Ideal) x0 (val_main_v1 (F := Ideal) x1) (val_main_v3 (F := Ideal) x1)) x0 x2 x3 x4

/-- The network as a function of the eight arguments: the layer of the mean aggregation of the hidden features,
    over the same edges. -/
def network (x0 : (⟨S50000x128, .f32⟩ : BufTy).Contents (Elt Ideal)) (x1 : (⟨S2x800000, .i32⟩ : BufTy).Contents (Elt Ideal))
    (x2 x3 : (⟨S128x128, .f32⟩ : BufTy).Contents (Elt Ideal)) (x4 : (⟨S128, .f32⟩ : BufTy).Contents (Elt Ideal))
    (x5 x6 : (⟨S128x128, .f32⟩ : BufTy).Contents (Elt Ideal)) (x7 : (⟨S128, .f32⟩ : BufTy).Contents (Elt Ideal)) :
    (⟨S50000x128, .f32⟩ : BufTy).Contents (Elt Ideal) :=
  layer (meanAgg (F := Ideal) (hiddenOf x0 x1 x2 x3 x4) (val_main_v1 (F := Ideal) x1) (val_main_v3 (F := Ideal) x1))
    (hiddenOf x0 x1 x2 x3 x4) x5 x6 x7

/-- The whole reference is the network of its arguments. -/
theorem reference_eq (x0 : (⟨S50000x128, .f32⟩ : BufTy).Contents (Elt Ideal)) (x1 : (⟨S2x800000, .i32⟩ : BufTy).Contents (Elt Ideal))
    (x2 x3 : (⟨S128x128, .f32⟩ : BufTy).Contents (Elt Ideal)) (x4 : (⟨S128, .f32⟩ : BufTy).Contents (Elt Ideal))
    (x5 x6 : (⟨S128x128, .f32⟩ : BufTy).Contents (Elt Ideal)) (x7 : (⟨S128, .f32⟩ : BufTy).Contents (Elt Ideal)) :
    val_main_v55 (F := Ideal) x0 x1 x2 x3 x4 x5 x6 x7 = network x0 x1 x2 x3 x4 x5 x6 x7 := by
  rw [result_eq, agg2_eq, hidden_eq, agg1_eq]
  rfl

end Cert.ReferenceIdeal.RefValue

end
-- ==== Proof.Run.lean ====
/-
  The kernel program's run, with the result array named.

  @main is four segments: the host operations before the first dense kernel (the first mean aggregation and the bias
  reshape), the first kernel's grid, the host operations between the kernels (the second aggregation, of the first
  kernel's output), and the second kernel's grid. The generated frame follows the device's buffer contents through
  these segments as a fold (`Gen.W1` … `Gen.W4`). Here the same run is stated with one more conjunct in its
  post: the result array ends at the last stage of that fold.
-/
import proofs.«107053_j23210003267951_1_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates without a fault; the result array ends holding the
    last stage of the fold of buffer contents through @main's four segments, and the eight arguments end unchanged. -/
theorem run_result : θ_run defs (onTc (τ := τ) (main (F := F))) ⟨m, fun _ => 0, ρ⟩ (fun r => ∀ c : Dev nD,
      r.2.mem ((c.tc : Thread nD τ).loc main_v45) = W4 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v45 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Run

end
-- ==== Proof.Payload.lean ====
/-
  What one grid point of either dense kernel computes, index by index.

  Both kernel bodies load a 5000-row block of the aggregated array and of the feature array, the two 128 × 128
  weight matrices and the bias row, and store

      max ( agg_blk · Wn + x_blk · Wr + bias , 0 ).

  Over the extended reals the narrowing of the matrix-unit inputs is the identity and a matrix-unit product into a zero
  accumulator is the plain sum over the contracted axis, so the stored block is `Cert.Sage.cell` of the loaded blocks:
  entry (p, q) reads row p of the two feature blocks, column q of the two weight matrices and bias entry q.
-/
import proofs.«107053_j23210003267951_1_alg».proof.Proof.Gen.KernelIdeal.Skeleton
import proofs.«107053_j23210003267951_1_alg».proof.Proof.Layer
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Block

open Idealize.ShloMosaic Idealize.ShloMosaic.ValueIdx Cert.KernelIdeal Cert.KernelIdeal.Gen Cert.Sage

/-- The left operand's row coordinate is the output's row. -/
theorem lhs_row (i : S5000x128.Idx) (κ : dot_S5000x128_S128x128_S5000x128_1_0_0_1_n_n.contr.Idx) : (dot_S5000x128_S128x128_S5000x128_1_0_0_1_n_n.lhsIdx i κ 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- The right operand's column coordinate is the output's column. -/
theorem rhs_col (i : S5000x128.Idx) (κ : dot_S5000x128_S128x128_S5000x128_1_0_0_1_n_n.contr.Idx) : (dot_S5000x128_S128x128_S5000x128_1_0_0_1_n_n.rhsIdx i κ 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- A matrix-unit product of a 5000 × 128 block with a 128 × 128 matrix into a zero accumulator, at entry (p, q), is
    `Σ_k l[p,k] · r[k,q]`. -/
theorem matmul_at (l : FVec Ideal S5000x128 .bf16) (r : FVec Ideal S128x128 .bf16) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  show FloatOps.matmul dot_S5000x128_S128x128_S5000x128_1_0_0_1_n_n none l r (constant (F := Ideal) S5000x128 .f32 0x00000000#32) (ix2 p q) = _
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k :=
    funext fun a => Fin.ext (by
      match a with
      | ⟨0, _⟩ => exact lhs_row _ _
      | ⟨1, _⟩ => exact (dot_S5000x128_S128x128_S5000x128_1_0_0_1_n_n.lhsIdx_val_of_single rfl _ _).trans hk)
  have er : dot_S5000x128_S128x128_S5000x128_1_0_0_1_n_n.rhsIdx (ix2 p q) ((contrEquiv1 dot_S5000x128_S128x128_S5000x128_1_0_0_1_n_n 128 rfl rfl).symm k) = ix2 k q :=
    funext fun a => Fin.ext (by
      match a with
      | ⟨0, _⟩ => exact (dot_S5000x128_S128x128_S5000x128_1_0_0_1_n_n.rhsIdx_val_of_single rfl _ _).trans hk
      | ⟨1, _⟩ => exact rhs_col _ _)
  rw [el, er]

/-- The first kernel's stored block, at entry (p, q), is the layer's entry of the loaded blocks. -/
theorem pay0_at (x0 x1 : Vec Ideal S5000x128 .f32) (x2 x3 : Vec Ideal S128x128 .f32) (x4 : Vec Ideal S1x128 .f32)
    (p : Fin 5000) (q : Fin 128) :
    k0_pay1 (F := Ideal) x0 x1 x2 x3 x4 (ix2 p q) = cell x0 x1 x2 x3 (x4 (ix2 0 q)) p q := by
  have e0 : shapeCast S5000x128 x0 shapeCasts_S5000x128_S5000x128 = x0 := shapeCast_self x0 _
  have e4 : shapeCast S1x128 x4 shapeCasts_S1x128_S1x128 = x4 := shapeCast_self x4 _
  unfold k0_pay1
  rw [e0, e4]
  show max (matmul dot_S5000x128_S128x128_S5000x128_1_0_0_1_n_n none (truncf .bf16 x0 bitsLt_bf16_f32) (truncf .bf16 x2 bitsLt_bf16_f32) (constant (F := Ideal) S5000x128 .f32 0x00000000#32) (ix2 p q)
        + matmul dot_S5000x128_S128x128_S5000x128_1_0_0_1_n_n none (truncf .bf16 x1 bitsLt_bf16_f32) (truncf .bf16 x3 bitsLt_bf16_f32) (constant (F := Ideal) S5000x128 .f32 0x00000000#32) (ix2 p q)
        + broadcastTo S5000x128 x4 broadcasts_S1x128_S5000x128 (ix2 p q)) (Ideal.ofBits .f32 0x00000000#32) = _
  rw [matmul_at, matmul_at, broadcastTo_1b_ab_apply]
  rfl

/-- The second kernel's stored block, at entry (p, q), is the layer's entry of the loaded blocks. -/
theorem pay1_at (x0 x1 : Vec Ideal S5000x128 .f32) (x2 x3 : Vec Ideal S128x128 .f32) (x4 : Vec Ideal S1x128 .f32)
    (p : Fin 5000) (q : Fin 128) :
    k1_pay1 (F := Ideal) x0 x1 x2 x3 x4 (ix2 p q) = cell x0 x1 x2 x3 (x4 (ix2 0 q)) p q := by
  have e0 : shapeCast S5000x128 x0 shapeCasts_S5000x128_S5000x128 = x0 := shapeCast_self x0 _
  have e1 : shapeCast S5000x128 x1 shapeCasts_S5000x128_S5000x128 = x1 := shapeCast_self x1 _
  have e4 : shapeCast S1x128 x4 shapeCasts_S1x128_S1x128 = x4 := shapeCast_self x4 _
  unfold k1_pay1
  rw [e0, e1, e4]
  show max (matmul dot_S5000x128_S128x128_S5000x128_1_0_0_1_n_n none (truncf .bf16 x0 bitsLt_bf16_f32) (truncf .bf16 x2 bitsLt_bf16_f32) (constant (F := Ideal) S5000x128 .f32 0x00000000#32) (ix2 p q)
        + matmul dot_S5000x128_S128x128_S5000x128_1_0_0_1_n_n none (truncf .bf16 x1 bitsLt_bf16_f32) (truncf .bf16 x3 bitsLt_bf16_f32) (constant (F := Ideal) S5000x128 .f32 0x00000000#32) (ix2 p q)
        + broadcastTo S5000x128 x4 broadcasts_S1x128_S5000x128 (ix2 p q)) (Ideal.ofBits .f32 0x00000000#32) = _
  rw [matmul_at, matmul_at, broadcastTo_1b_ab_apply]
  rfl

end Cert.KernelIdeal.Block

end
-- ==== Proof.Region0.lean ====
/-
  Region 0 of the kernel program: from blocks to the whole array.

  The grid has ten points; point t loads rows 5000·t … 5000·t + 4999 of the aggregated array and of the feature array,
  the two weight matrices and the bias row whole, and writes back rows 5000·t … 5000·t + 4999 of the result. Since an
  entry of the layer only reads its own row of the two feature arrays, the block point t writes back is block t of
  ONE whole-array function, `Cert.Sage.layerRow` of the arrays as the region finds them; the ten blocks cover the
  50000 rows, so the result array ends holding that function.
-/
import proofs.«107053_j23210003267951_1_alg».proof.Proof.Gen.KernelIdeal.Frame
import proofs.«107053_j23210003267951_1_alg».proof.Proof.Payload
import Idealize.ShloMosaic.Lib.Pipeline.Value

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Block Cert.Sage

variable (V : (c : Dev nD) → (b : Ref sig .tc) → Buf (Elt Ideal) ((c : Thread nD τ).loc b))

theorem offset_zero : (![0, 0] : Fin 2 → Nat) = fun _ => 0 := funext fun a => by fin_cases a <;> rfl

/-- The printed index maps over the grid: the two feature windows move with the output window along the rows, the
    weight and bias windows stay at block (0, 0), and no window moves along the columns. -/
theorem index_facts : ∀ t : Fin cfg0.N,
      win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) ≤ 9 :=
  (by decide +kernel : ∀ t : Fin grid0.N, _)

/-- Every block of rows is some point's. -/
theorem index_onto : ∀ q0 : Fin 10, ∃ t : Fin cfg0.N, win0_5.index t = ![q0.val, 0] :=
  (by decide +kernel : ∀ q0 : Fin 10, ∃ t : Fin grid0.N, win0_5.index t = ![q0.val, 0])

/-- WHAT POINT `t` WRITES BACK is block `t` of the layer of the arrays as the region finds them. -/
theorem flushed_eq (c : Dev nD) (t : Fin cfg0.N) :
    (dat0 V c).flushed 5 t = ((cfg0.win 5).blk t).view.read (Elt Ideal)
      (layerRow (V c main_v22) (V c main_arg0) (V c main_arg2) (V c main_arg3) (V c main_v23)) := by
  show (cfg0.win 5).cut (grid0.coords t) ((dat0 V c).after 5 t) = _
  rw [after0_5]
  unfold out0_5
  rw [View.canon_unit_zero offset_zero]
  simp only [View.ld_unit_zero (S := S5000x128) offset_zero, View.ld_unit_zero (S := S128x128) offset_zero,
    View.ld_unit_zero (S := S1x128) offset_zero]
  obtain ⟨e0, e1, e2, e3, e4, e5, e6, e7, e8, e9, e10, -⟩ := index_facts t
  funext j
  obtain ⟨p, q, rfl⟩ : ∃ (p : Fin 5000) (q : Fin 128), j = ix2 p q := ⟨j 0, j 1, eq_ix2 j⟩
  refine (pay0_at _ _ _ _ _ p q).trans ?_
  show _ = layerRow (V c main_v22) (V c main_arg0) (V c main_arg2) (V c main_arg3) (V c main_v23) (((cfg0.win 5).blk t).view.emb (ix2 p q))
  unfold layerRow
  refine cell_congr _ _ _ _ _ _ _ _ _ _ p _ q _ (fun k => ?_) (fun k => ?_) (fun k => ?_) (fun k => ?_) ?_
  · show V c main_v22 (((cfg0.win 0).blk t).view.emb (ix2 p k)) = V c main_v22 _
    refine congrArg _ (funext fun a => Fin.ext ?_)
    match a with
    | ⟨0, _⟩ => show win0_0.index t (0 : Fin 2) * 5000 + 1 * p.val = win0_5.index t (0 : Fin 2) * 5000 + 1 * p.val; omega
    | ⟨1, _⟩ => show win0_0.index t (1 : Fin 2) * 128 + 1 * k.val = k.val; omega
  · show V c main_arg0 (((cfg0.win 1).blk t).view.emb (ix2 p k)) = V c main_arg0 _
    refine congrArg _ (funext fun a => Fin.ext ?_)
    match a with
    | ⟨0, _⟩ => show win0_1.index t (0 : Fin 2) * 5000 + 1 * p.val = win0_5.index t (0 : Fin 2) * 5000 + 1 * p.val; omega
    | ⟨1, _⟩ => show win0_1.index t (1 : Fin 2) * 128 + 1 * k.val = k.val; omega
  · show V c main_arg2 (((cfg0.win 2).blk t).view.emb (ix2 k q)) = V c main_arg2 _
    refine congrArg _ (funext fun a => Fin.ext ?_)
    match a with
    | ⟨0, _⟩ => show win0_2.index t (0 : Fin 2) * 128 + 1 * k.val = k.val; omega
    | ⟨1, _⟩ => show win0_2.index t (1 : Fin 2) * 128 + 1 * q.val = win0_5.index t (1 : Fin 2) * 128 + 1 * q.val; omega
  · show V c main_arg3 (((cfg0.win 3).blk t).view.emb (ix2 k q)) = V c main_arg3 _
    refine congrArg _ (funext fun a => Fin.ext ?_)
    match a with
    | ⟨0, _⟩ => show win0_3.index t (0 : Fin 2) * 128 + 1 * k.val = k.val; omega
    | ⟨1, _⟩ => show win0_3.index t (1 : Fin 2) * 128 + 1 * q.val = win0_5.index t (1 : Fin 2) * 128 + 1 * q.val; omega
  · show V c main_v23 (((cfg0.win 4).blk t).view.emb (ix2 0 q)) = V c main_v23 _
    refine congrArg _ (funext fun a => Fin.ext ?_)
    match a with
    | ⟨0, _⟩ => show win0_4.index t (0 : Fin 2) * 1 + 1 * 0 = 0; omega
    | ⟨1, _⟩ => show win0_4.index t (1 : Fin 2) * 128 + 1 * q.val = win0_5.index t (1 : Fin 2) * 128 + 1 * q.val; omega

/-- An index of the result array is in point `t`'s block iff each coordinate is in the block's range on its axis. -/
theorem mem_blk (t : Fin cfg0.N) (i : S50000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v24).slice (win0_5.rect t)).set ↔ _
  rw [View.set_slice_whole, Rect.mem_set_unit]
  exact Iff.rfl

/-- Every index of the result array is in the block some point writes back: the point of row r is r / 5000. -/
theorem covered (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ := index_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- THE RESULT ARRAY after the region: the layer of the arrays as the region finds them. -/
theorem final (c : Dev nD) : (dat0 V c).arrAt 5 cfg0.N
    = layerRow (V c main_v22) (V c main_arg0) (V c main_arg2) (V c main_arg3) (V c main_v23) :=
  (dat0 V c).arrAt_eq_of_cover 5 _ (fun t _ => flushed_eq V c t) covered

end Cert.KernelIdeal.Region0

end
-- ==== Proof.Region1.lean ====
/-
  Region 1 of the kernel program: from blocks to the whole array.

  The grid has ten points; point t loads rows 5000·t … 5000·t + 4999 of the aggregated array and of the feature array,
  the two weight matrices and the bias row whole, and writes back rows 5000·t … 5000·t + 4999 of the result. Since an
  entry of the layer only reads its own row of the two feature arrays, the block point t writes back is block t of
  ONE whole-array function, `Cert.Sage.layerRow` of the arrays as the region finds them; the ten blocks cover the
  50000 rows, so the result array ends holding that function.
-/
import proofs.«107053_j23210003267951_1_alg».proof.Proof.Gen.KernelIdeal.Frame
import proofs.«107053_j23210003267951_1_alg».proof.Proof.Payload
import Idealize.ShloMosaic.Lib.Pipeline.Value

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Block Cert.Sage

variable (V : (c : Dev nD) → (b : Ref sig .tc) → Buf (Elt Ideal) ((c : Thread nD τ).loc b))

theorem offset_zero : (![0, 0] : Fin 2 → Nat) = fun _ => 0 := funext fun a => by fin_cases a <;> rfl

/-- The printed index maps over the grid: the two feature windows move with the output window along the rows, the
    weight and bias windows stay at block (0, 0), and no window moves along the columns. -/
theorem index_facts : ∀ t : Fin cfg1.N,
      win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0 ∧ win1_5.index t (0 : Fin 2) ≤ 9 :=
  (by decide +kernel : ∀ t : Fin grid1.N, _)

/-- Every block of rows is some point's. -/
theorem index_onto : ∀ q0 : Fin 10, ∃ t : Fin cfg1.N, win1_5.index t = ![q0.val, 0] :=
  (by decide +kernel : ∀ q0 : Fin 10, ∃ t : Fin grid1.N, win1_5.index t = ![q0.val, 0])

/-- WHAT POINT `t` WRITES BACK is block `t` of the layer of the arrays as the region finds them. -/
theorem flushed_eq (c : Dev nD) (t : Fin cfg1.N) :
    (dat1 V c).flushed 5 t = ((cfg1.win 5).blk t).view.read (Elt Ideal)
      (layerRow (V c main_v43) (V c main_v24) (V c main_arg5) (V c main_arg6) (V c main_v44)) := by
  show (cfg1.win 5).cut (grid1.coords t) ((dat1 V c).after 5 t) = _
  rw [after1_5]
  unfold out1_5
  rw [View.canon_unit_zero offset_zero]
  simp only [View.ld_unit_zero (S := S5000x128) offset_zero, View.ld_unit_zero (S := S128x128) offset_zero,
    View.ld_unit_zero (S := S1x128) offset_zero]
  obtain ⟨e0, e1, e2, e3, e4, e5, e6, e7, e8, e9, e10, -⟩ := index_facts t
  funext j
  obtain ⟨p, q, rfl⟩ : ∃ (p : Fin 5000) (q : Fin 128), j = ix2 p q := ⟨j 0, j 1, eq_ix2 j⟩
  refine (pay1_at _ _ _ _ _ p q).trans ?_
  show _ = layerRow (V c main_v43) (V c main_v24) (V c main_arg5) (V c main_arg6) (V c main_v44) (((cfg1.win 5).blk t).view.emb (ix2 p q))
  unfold layerRow
  refine cell_congr _ _ _ _ _ _ _ _ _ _ p _ q _ (fun k => ?_) (fun k => ?_) (fun k => ?_) (fun k => ?_) ?_
  · show V c main_v43 (((cfg1.win 0).blk t).view.emb (ix2 p k)) = V c main_v43 _
    refine congrArg _ (funext fun a => Fin.ext ?_)
    match a with
    | ⟨0, _⟩ => show win1_0.index t (0 : Fin 2) * 5000 + 1 * p.val = win1_5.index t (0 : Fin 2) * 5000 + 1 * p.val; omega
    | ⟨1, _⟩ => show win1_0.index t (1 : Fin 2) * 128 + 1 * k.val = k.val; omega
  · show V c main_v24 (((cfg1.win 1).blk t).view.emb (ix2 p k)) = V c main_v24 _
    refine congrArg _ (funext fun a => Fin.ext ?_)
    match a with
    | ⟨0, _⟩ => show win1_1.index t (0 : Fin 2) * 5000 + 1 * p.val = win1_5.index t (0 : Fin 2) * 5000 + 1 * p.val; omega
    | ⟨1, _⟩ => show win1_1.index t (1 : Fin 2) * 128 + 1 * k.val = k.val; omega
  · show V c main_arg5 (((cfg1.win 2).blk t).view.emb (ix2 k q)) = V c main_arg5 _
    refine congrArg _ (funext fun a => Fin.ext ?_)
    match a with
    | ⟨0, _⟩ => show win1_2.index t (0 : Fin 2) * 128 + 1 * k.val = k.val; omega
    | ⟨1, _⟩ => show win1_2.index t (1 : Fin 2) * 128 + 1 * q.val = win1_5.index t (1 : Fin 2) * 128 + 1 * q.val; omega
  · show V c main_arg6 (((cfg1.win 3).blk t).view.emb (ix2 k q)) = V c main_arg6 _
    refine congrArg _ (funext fun a => Fin.ext ?_)
    match a with
    | ⟨0, _⟩ => show win1_3.index t (0 : Fin 2) * 128 + 1 * k.val = k.val; omega
    | ⟨1, _⟩ => show win1_3.index t (1 : Fin 2) * 128 + 1 * q.val = win1_5.index t (1 : Fin 2) * 128 + 1 * q.val; omega
  · show V c main_v44 (((cfg1.win 4).blk t).view.emb (ix2 0 q)) = V c main_v44 _
    refine congrArg _ (funext fun a => Fin.ext ?_)
    match a with
    | ⟨0, _⟩ => show win1_4.index t (0 : Fin 2) * 1 + 1 * 0 = 0; omega
    | ⟨1, _⟩ => show win1_4.index t (1 : Fin 2) * 128 + 1 * q.val = win1_5.index t (1 : Fin 2) * 128 + 1 * q.val; omega

/-- An index of the result array is in point `t`'s block iff each coordinate is in the block's range on its axis. -/
theorem mem_blk (t : Fin cfg1.N) (i : S50000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v45).slice (win1_5.rect t)).set ↔ _
  rw [View.set_slice_whole, Rect.mem_set_unit]
  exact Iff.rfl

/-- Every index of the result array is in the block some point writes back: the point of row r is r / 5000. -/
theorem covered (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ := index_onto ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- THE RESULT ARRAY after the region: the layer of the arrays as the region finds them. -/
theorem final (c : Dev nD) : (dat1 V c).arrAt 5 cfg1.N
    = layerRow (V c main_v43) (V c main_v24) (V c main_arg5) (V c main_arg6) (V c main_v44) :=
  (dat1 V c).arrAt_eq_of_cover 5 _ (fun t _ => flushed_eq V c t) covered

end Cert.KernelIdeal.Region1

end
-- ==== Proof.HostStretch.lean ====
/-
  The host operations around the two dense kernels, read at the buffers the kernels use.

  Before the first kernel the program slices the two edge rows out of the edge array, computes the mean aggregation
  of the input features over them, and reshapes the first bias to one row. Between the kernels it computes the mean
  aggregation of the first kernel's output over the SAME two edge rows (it reuses the slices) and reshapes the second
  bias. Each lemma states one buffer after a stretch as a function of the buffer contents `W` the stretch starts from;
  `W` stays a variable, so nothing here depends on how those contents came about. The aggregation is the reference's
  `meanAgg`, operation for operation, and is not opened.
-/
import proofs.«107053_j23210003267951_1_alg».proof.Proof.Gen.KernelIdeal.Launch
import proofs.«107053_j23210003267951_1_alg».proof.Proof.RefValue
import Idealize.ShloMosaic.Lib.StableHlo.Run
import Idealize.ShloMosaic.Lib.ValueLayout

set_option maxRecDepth 16384

noncomputable section

namespace Cert.KernelIdeal.HostStretch

open Idealize.ShloMosaic Idealize.ShloMosaic.TcCoe Idealize.ShloMosaic.ValueIdx Idealize.SL.Sem Idealize.ShloMosaic.StableHlo
open Cert.KernelIdeal Cert.KernelIdeal.Gen
open Cert.ReferenceIdeal.RefValue (meanAgg)
open Cert.ReferenceIdeal.Read (val_main_v1 val_main_v3)

/-- A bias vector of 128 laid out as one row. -/
def biasRow (b : S128.Idx → EReal) : S1x128.Idx → EReal := shapeCast S1x128 b shapeCasts_S128_S1x128

/-- The row's entry q is the vector's entry q. -/
theorem biasRow_apply (b : S128.Idx → EReal) (q : Fin 128) : biasRow b (ix2 (0 : Fin 1) q) = b (ix1 q) :=
  shapeCast_a_1a_apply b shapeCasts_S128_S1x128 0 q

variable (W : Valuation τ sig (Elt Ideal))

/-! ## Before the first kernel -/

/-- The source row of the edge array. -/
theorem before_src : (StableHlo.after (hostOps0 (F := Ideal)) W (Proc.devRef .tc main_v1) : S800000.Idx → BitVec 32)
    = val_main_v1 (F := Ideal) (W (Proc.devRef .tc main_arg1)) := by
  after_results_simp
  rfl

/-- The destination row of the edge array. -/
theorem before_dst : (StableHlo.after (hostOps0 (F := Ideal)) W (Proc.devRef .tc main_v3) : S800000.Idx → BitVec 32)
    = val_main_v3 (F := Ideal) (W (Proc.devRef .tc main_arg1)) := by
  after_results_simp
  rfl

/-- The first kernel's aggregated operand: the mean aggregation of the input features. -/
theorem before_agg : (StableHlo.after (hostOps0 (F := Ideal)) W (Proc.devRef .tc main_v22) : S50000x128.Idx → EReal)
    = meanAgg (F := Ideal) (W (Proc.devRef .tc main_arg0)) (val_main_v1 (F := Ideal) (W (Proc.devRef .tc main_arg1)))
        (val_main_v3 (F := Ideal) (W (Proc.devRef .tc main_arg1))) := by
  after_results_simp
  rfl

/-- The first kernel's bias operand: the first bias as a row. -/
theorem before_bias : (StableHlo.after (hostOps0 (F := Ideal)) W (Proc.devRef .tc main_v23) : S1x128.Idx → EReal)
    = biasRow (W (Proc.devRef .tc main_arg4)) := by
  after_results_simp
  rfl

/-- No operation before the first kernel writes an argument. -/
theorem before_arg0 : StableHlo.after (hostOps0 (F := Ideal)) W (Proc.devRef .tc main_arg0) = W (Proc.devRef .tc main_arg0) := by
  after_results_simp
theorem before_arg2 : StableHlo.after (hostOps0 (F := Ideal)) W (Proc.devRef .tc main_arg2) = W (Proc.devRef .tc main_arg2) := by
  after_results_simp
theorem before_arg3 : StableHlo.after (hostOps0 (F := Ideal)) W (Proc.devRef .tc main_arg3) = W (Proc.devRef .tc main_arg3) := by
  after_results_simp
theorem before_arg5 : StableHlo.after (hostOps0 (F := Ideal)) W (Proc.devRef .tc main_arg5) = W (Proc.devRef .tc main_arg5) := by
  after_results_simp
theorem before_arg6 : StableHlo.after (hostOps0 (F := Ideal)) W (Proc.devRef .tc main_arg6) = W (Proc.devRef .tc main_arg6) := by
  after_results_simp
theorem before_arg7 : StableHlo.after (hostOps0 (F := Ideal)) W (Proc.devRef .tc main_arg7) = W (Proc.devRef .tc main_arg7) := by
  after_results_simp

/-! ## Between the kernels -/

/-- The second kernel's aggregated operand: the mean aggregation of the first kernel's output, over the edge rows
    sliced before the first kernel. -/
theorem between_agg : (StableHlo.after (hostOps1 (F := Ideal)) W (Proc.devRef .tc main_v43) : S50000x128.Idx → EReal)
    = meanAgg (F := Ideal) (W (Proc.devRef .tc main_v24)) (W (Proc.devRef .tc main_v1)) (W (Proc.devRef .tc main_v3)) := by
  after_results_simp
  rfl

/-- The second kernel's bias operand: the second bias as a row. -/
theorem between_bias : (StableHlo.after (hostOps1 (F := Ideal)) W (Proc.devRef .tc main_v44) : S1x128.Idx → EReal)
    = biasRow (W (Proc.devRef .tc main_arg7)) := by
  after_results_simp
  rfl

/-- No operation between the kernels writes the first kernel's output or a weight matrix. -/
theorem between_hidden : StableHlo.after (hostOps1 (F := Ideal)) W (Proc.devRef .tc main_v24) = W (Proc.devRef .tc main_v24) := by
  after_results_simp
theorem between_arg5 : StableHlo.after (hostOps1 (F := Ideal)) W (Proc.devRef .tc main_arg5) = W (Proc.devRef .tc main_arg5) := by
  after_results_simp
theorem between_arg6 : StableHlo.after (hostOps1 (F := Ideal)) W (Proc.devRef .tc main_arg6) = W (Proc.devRef .tc main_arg6) := by
  after_results_simp

end Cert.KernelIdeal.HostStretch

end
-- ==== Proof.KernelValue.lean ====
/-
  The kernel program's result as a function of its arguments.

  Following the buffer contents through @main's four segments: the first dense kernel's output is the layer
  (`Region0.final`) of the mean aggregation of the input features (`before_agg`) and the input features; the
  host operations between the kernels leave it in place and aggregate it over the same two edge rows
  (`between_agg`, the rows untouched by the first kernel); the second dense kernel's output is the layer
  (`Region1.final`) of that aggregation and the first kernel's output. The bias reaches each kernel as one row,
  which reads as the bias vector (`layerRow_biasRow`). Together: the result array is `network` of the eight
  arguments, the same function the reference computes.
-/
import proofs.«107053_j23210003267951_1_alg».proof.Proof.Run
import proofs.«107053_j23210003267951_1_alg».proof.Proof.Region0
import proofs.«107053_j23210003267951_1_alg».proof.Proof.Region1
import proofs.«107053_j23210003267951_1_alg».proof.Proof.HostStretch

set_option maxRecDepth 16384

noncomputable section

namespace Cert.KernelIdeal.Result

open Idealize.ShloMosaic Idealize.ShloMosaic.TcCoe Idealize.ShloMosaic.ValueIdx Idealize.SL.Sem Idealize.ShloMosaic.StableHlo
open Cert.KernelIdeal Cert.KernelIdeal.Gen Cert.KernelIdeal.HostStretch Cert.Sage
open Cert.ReferenceIdeal.RefValue (meanAgg hiddenOf network)
open Cert.ReferenceIdeal.Read (val_main_v1 val_main_v3)

/-- With the bias laid out as a row, the layer is the layer of the bias vector. -/
theorem layerRow_biasRow (a x : S50000x128.Idx → EReal) (wn wr : S128x128.Idx → EReal) (b : S128.Idx → EReal) :
    layerRow a x wn wr (biasRow b) = layer a x wn wr b :=
  funext fun i => congrArg (fun β => cell a x wn wr β (i 0) (i 1)) (biasRow_apply b (i 1))

variable (m : (ℓ : Loc nD τ sig) → Buf (Elt Ideal) ℓ) (ρ : Dev nD → PrngReg)

/-- After the first kernel, its output array holds the hidden features. -/
theorem hidden_eq (c : Dev nD) :
    (W2 m ρ c (Proc.devRef .tc main_v24) : S50000x128.Idx → EReal)
      = hiddenOf (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  refine ((W2_arr m ρ c 5).trans (Region0.final (V1 m ρ) c)).trans ?_
  show layerRow (StableHlo.after (hostOps0 (F := Ideal)) (W0 m ρ c) (Proc.devRef .tc main_v22))
      (StableHlo.after (hostOps0 (F := Ideal)) (W0 m ρ c) (Proc.devRef .tc main_arg0))
      (StableHlo.after (hostOps0 (F := Ideal)) (W0 m ρ c) (Proc.devRef .tc main_arg2))
      (StableHlo.after (hostOps0 (F := Ideal)) (W0 m ρ c) (Proc.devRef .tc main_arg3))
      (StableHlo.after (hostOps0 (F := Ideal)) (W0 m ρ c) (Proc.devRef .tc main_v23)) = _
  rw [before_agg, before_arg0, before_arg2, before_arg3, before_bias, layerRow_biasRow]
  rfl

/-- The edge rows sliced before the first kernel are still there after it. -/
theorem src_eq (c : Dev nD) : (W2 m ρ c (Proc.devRef .tc main_v1) : S800000.Idx → BitVec 32)
    = val_main_v1 (F := Ideal) (m ((c.tc : Thread nD τ).loc main_arg1)) :=
  (W2_of_ne m ρ c main_v1 (by decide)).trans (before_src (W0 m ρ c))
theorem dst_eq (c : Dev nD) : (W2 m ρ c (Proc.devRef .tc main_v3) : S800000.Idx → BitVec 32)
    = val_main_v3 (F := Ideal) (m ((c.tc : Thread nD τ).loc main_arg1)) :=
  (W2_of_ne m ρ c main_v3 (by decide)).trans (before_dst (W0 m ρ c))

/-- The second layer's arguments are as launched when the second stretch of host operations starts. -/
theorem arg5_eq (c : Dev nD) : W2 m ρ c (Proc.devRef .tc main_arg5) = m ((c.tc : Thread nD τ).loc main_arg5) :=
  (W2_of_ne m ρ c main_arg5 (by decide)).trans (before_arg5 (W0 m ρ c))
theorem arg6_eq (c : Dev nD) : W2 m ρ c (Proc.devRef .tc main_arg6) = m ((c.tc : Thread nD τ).loc main_arg6) :=
  (W2_of_ne m ρ c main_arg6 (by decide)).trans (before_arg6 (W0 m ρ c))
theorem arg7_eq (c : Dev nD) : W2 m ρ c (Proc.devRef .tc main_arg7) = m ((c.tc : Thread nD τ).loc main_arg7) :=
  (W2_of_ne m ρ c main_arg7 (by decide)).trans (before_arg7 (W0 m ρ c))

/-- After the second kernel, the result array holds the network of the arguments. -/
theorem result_eq (c : Dev nD) :
    (W4 m ρ c (Proc.devRef .tc main_v45) : S50000x128.Idx → EReal) = network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine ((W4_arr m ρ c 5).trans (Region1.final (V3 m ρ) c)).trans ?_
  show layerRow (StableHlo.after (hostOps1 (F := Ideal)) (W2 m ρ c) (Proc.devRef .tc main_v43))
      (StableHlo.after (hostOps1 (F := Ideal)) (W2 m ρ c) (Proc.devRef .tc main_v24))
      (StableHlo.after (hostOps1 (F := Ideal)) (W2 m ρ c) (Proc.devRef .tc main_arg5))
      (StableHlo.after (hostOps1 (F := Ideal)) (W2 m ρ c) (Proc.devRef .tc main_arg6))
      (StableHlo.after (hostOps1 (F := Ideal)) (W2 m ρ c) (Proc.devRef .tc main_v44)) = _
  rw [between_agg, between_hidden, between_arg5, between_arg6, between_bias, layerRow_biasRow,
    hidden_eq m ρ c, src_eq m ρ c, dst_eq m ρ c, arg5_eq m ρ c, arg6_eq m ρ c, arg7_eq m ρ c]
  rfl

/-- THE KERNEL PROGRAM'S RUN: every weakly fair execution terminates without a fault, the result array ends holding
    the network of the arguments, and the arguments end unchanged. -/
theorem run : θ_run (defs (F := Ideal)) (onTc (τ := τ) (main (F := Ideal))) ⟨m, fun _ => 0, ρ⟩ (fun r => ∀ c : Dev nD,
      r.2.mem ((c.tc : Thread nD τ).loc main_v45) = network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run (defs (F := Ideal)) _ _).mono (fun r h c => ⟨(h c).1.trans (result_eq m ρ c), (h c).2⟩)
    (Cert.KernelIdeal.Run.run_result (F := Ideal) m ρ)

end Cert.KernelIdeal.Result

end
-- ==== Proof.lean ====
/-
  A two-layer GraphSAGE network with mean aggregation: the kernel program against its reference, over the
  extended reals.

  Both programs compute, twice, the mean aggregation of a node-feature array over the edges (gather the source
  rows, sum them into the destination rows, divide by the clamped in-degree) followed by the dense layer
  max(agg · Wn + x · Wr + b, 0). The reference does everything with host operations. The kernel program keeps the
  aggregation as host operations — the same operations on the same two rows of the edge array — and runs each dense
  layer as a grid of ten row blocks, narrowing the matrix-unit inputs to bf16 (the identity on the extended reals).

  The equality needs no algebra beyond congruence: the aggregation is one function (`meanAgg`) that both programs
  apply to equal arrays, a matrix-unit product into a zero accumulator and a host matrix product are the same sum over
  the contracted axis, and an entry of a layer reads only its own row of the feature arrays, so the ten row blocks are
  restrictions of one whole-array function (`Cert.Sage.layer`). Finiteness of the inputs is never used.

  `Proof/Layer.lean` is the layer as a function of whole arrays; `Proof/RefValue.lean` reads the reference as two
  layers; `Proof/Payload.lean` reads one grid point of either kernel; `Proof/Region0.lean` and `Proof/Region1.lean`
  go from blocks to the array; `Proof/HostStretch.lean` reads the host operations around the kernels;
  `Proof/Run.lean` is the kernel program's run with its result named; `Proof/KernelValue.lean` puts the kernel side
  together.
-/
import proofs.«107053_j23210003267951_1_alg».proof.Defs
import proofs.«107053_j23210003267951_1_alg».proof.Proof.Gen.Kernel
import proofs.«107053_j23210003267951_1_alg».proof.Proof.Gen.Kernel.Skeleton
import proofs.«107053_j23210003267951_1_alg».proof.Proof.Gen.Kernel.Launch
import proofs.«107053_j23210003267951_1_alg».proof.Proof.Gen.Kernel.Points
import proofs.«107053_j23210003267951_1_alg».proof.Proof.Gen.Kernel.Frame
import proofs.«107053_j23210003267951_1_alg».proof.Proof.Gen.KernelIdeal
import proofs.«107053_j23210003267951_1_alg».proof.Proof.Gen.KernelIdeal.Skeleton
import proofs.«107053_j23210003267951_1_alg».proof.Proof.Gen.KernelIdeal.Launch
import proofs.«107053_j23210003267951_1_alg».proof.Proof.Gen.KernelIdeal.Points
import proofs.«107053_j23210003267951_1_alg».proof.Proof.Gen.KernelIdeal.Frame
import proofs.«107053_j23210003267951_1_alg».proof.Proof.Gen.ReferenceIdeal
import proofs.«107053_j23210003267951_1_alg».proof.Proof.Gen.Pre_finite_inputs
import proofs.«107053_j23210003267951_1_alg».proof.Proof.Gen.ReferenceIdeal.Run
import proofs.«107053_j23210003267951_1_alg».proof.Proof.Gen.ReferenceIdeal.Read
import proofs.«107053_j23210003267951_1_alg».proof.Proof.RefValue
import proofs.«107053_j23210003267951_1_alg».proof.Proof.KernelValue
import Idealize.ShloMosaic.Adequacy
import Idealize.ShloMosaic.Init

noncomputable section

namespace Cert.Proof

open Idealize.ShloMosaic Idealize.SL.Sem

/-- The word-level kernel program runs and leaves its arguments unchanged. -/
theorem frame_k : Cert.frame_Kernel := fun m ρ _ => Cert.Kernel.Gen.frame m ρ

/-- The idealized kernel program runs and leaves its arguments unchanged. -/
theorem frame_ki : Cert.frame_KernelIdeal := fun m ρ _ => Cert.KernelIdeal.Gen.frame m ρ

/-- The idealized reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing in the kernel program. -/
theorem preserves : Cert.preserves_Kernel_KernelIdeal := trivial

/-- From memories agreeing on the arguments both programs end with the network of the arguments in their result
    array: the kernel program by `Result.run`, the reference by its generated run read as two layers. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v55_eq, Cert.ReferenceIdeal.RefValue.reference_eq, h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
